-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x128 : Shape := ⟨2, ![384, 128]⟩
abbrev S128x128 : Shape := ⟨2, ![128, 128]⟩
abbrev S384 : Shape := ⟨1, ![384]⟩
abbrev S_ : Shape := ⟨0, ![]⟩

class Facts : Prop where
  bcast_S_S384x128 : S_.BroadcastsInDim S384x128 (![] : Fin 0 → Fin S384x128.rank)
  reducesTo_S384x128_S_d0_1 : S384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S384x128 .f32) (main_arg1 : FVec F S128x128 .f32) (main_arg2 : IVec S384 32) : IVec S_ 1 :=
  let main_v0 : FVec F S384x128 .f32 := Host.absf main_arg0
  let main_cst : FVec F S_ .f32 := constant S_ .f32 0x7F800000#32
  let main_v1 : FVec F S384x128 .f32 := broadcastInDim S384x128 ![] bcast_S_S384x128 main_cst
  let main_v2 : IVec S384x128 1 := cmpf .olt main_v0 main_v1
  let main_c : IVec S_ 1 := constantI S_ 1 1#1
  let main_v3 : IVec S_ 1 := (fun x v => Host.reduce IntOp.andi x v reducesTo_S384x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S384x128 : Shape := ⟨2, ![384, 128]⟩
abbrev S128x128 : Shape := ⟨2, ![128, 128]⟩
abbrev S384 : Shape := ⟨1, ![384]⟩
abbrev S_ : Shape := ⟨0, ![]⟩
abbrev S128x384 : Shape := ⟨2, ![128, 384]⟩
abbrev S384x384 : Shape := ⟨2, ![384, 384]⟩
abbrev S384x1 : Shape := ⟨2, ![384, 1]⟩
abbrev S1x384 : Shape := ⟨2, ![1, 384]⟩
abbrev S16x384 : Shape := ⟨2, ![16, 384]⟩
abbrev S16x1 : Shape := ⟨2, ![16, 1]⟩
abbrev S16x128 : Shape := ⟨2, ![16, 128]⟩
abbrev S16x1x384 : Shape := ⟨3, ![16, 1, 384]⟩
abbrev S16x128x1 : Shape := ⟨3, ![16, 128, 1]⟩
abbrev S16x128x384 : Shape := ⟨3, ![16, 128, 384]⟩
abbrev S1x128x384 : Shape := ⟨3, ![1, 128, 384]⟩
abbrev S16 : Shape := ⟨1, ![16]⟩

abbrev nBuf : Space → Nat
  | .hbm => 69
  | .vmem => 9
  | .smem => 0
  | _ => 0

abbrev bufTy : (tb : Table) → Fin (tcTables nBuf tb) → BufTy
  | .hbm, ⟨0, _⟩ => ⟨S384x128, .f32⟩
  | .hbm, ⟨1, _⟩ => ⟨S128x128, .f32⟩
  | .hbm, ⟨2, _⟩ => ⟨S384, .i32⟩
  | .hbm, ⟨3, _⟩ => ⟨S128x128, .f32⟩
  | .hbm, ⟨4, _⟩ => ⟨S128x128, .f32⟩
  | .hbm, ⟨5, _⟩ => ⟨S384x128, .f32⟩
  | .hbm, ⟨6, _⟩ => ⟨S384x128, .f32⟩
  | .hbm, ⟨7, _⟩ => ⟨S_, .f32⟩
  | .hbm, ⟨8, _⟩ => ⟨S384, .f32⟩
  | .hbm, ⟨9, _⟩ => ⟨S128x384, .f32⟩
  | .hbm, ⟨10, _⟩ => ⟨S384x384, .f32⟩
  | .hbm, ⟨11, _⟩ => ⟨S384x1, .f32⟩
  | .hbm, ⟨12, _⟩ => ⟨S1x384, .f32⟩
  | .hbm, ⟨13, _⟩ => ⟨S384x384, .f32⟩
  | .hbm, ⟨14, _⟩ => ⟨S384x384, .f32⟩
  | .hbm, ⟨15, _⟩ => ⟨S384x384, .f32⟩
  | .hbm, ⟨16, _⟩ => ⟨S_, .f32⟩
  | .hbm, ⟨17, _⟩ => ⟨S384x384, .f32⟩
  | .hbm, ⟨18, _⟩ => ⟨S384x384, .f32⟩
  | .hbm, ⟨19, _⟩ => ⟨S384x384, .f32⟩
  | .hbm, ⟨20, _⟩ => ⟨S128x128, .f32⟩
  | .hbm, ⟨21, _⟩ => ⟨S128x128, .f32⟩
  | .hbm, ⟨22, _⟩ => ⟨S384x128, .f32⟩
  | .hbm, ⟨23, _⟩ => ⟨S384x128, .f32⟩
  | .hbm, ⟨24, _⟩ => ⟨S_, .f32⟩
  | .hbm, ⟨25, _⟩ => ⟨S384, .f32⟩
  | .hbm, ⟨26, _⟩ => ⟨S128x384, .f32⟩
  | .hbm, ⟨27, _⟩ => ⟨S384x384, .f32⟩
  | .hbm, ⟨28, _⟩ => ⟨S384x1, .f32⟩
  | .hbm, ⟨29, _⟩ => ⟨S1x384, .f32⟩
  | .hbm, ⟨30, _⟩ => ⟨S384x384, .f32⟩
  | .hbm, ⟨31, _⟩ => ⟨S384x384, .f32⟩
  | .hbm, ⟨32, _⟩ => ⟨S384x384, .f32⟩
  | .hbm, ⟨33, _⟩ => ⟨S_, .f32⟩
  | .hbm, ⟨34, _⟩ => ⟨S384x384, .f32⟩
  | .hbm, ⟨35, _⟩ => ⟨S384x384, .f32⟩
  | .hbm, ⟨36, _⟩ => ⟨S384x384, .f32⟩
  | .hbm, ⟨37, _⟩ => ⟨S_, .f32⟩
  | .hbm, ⟨38, _⟩ => ⟨S384x384, .f32⟩
  | .hbm, ⟨39, _⟩ => ⟨S384x384, .f32⟩
  | .hbm, ⟨40, _⟩ => ⟨S384x384, .f32⟩
  | .hbm, ⟨41, _⟩ => ⟨S_, .f32⟩
  | .hbm, ⟨42, _⟩ => ⟨S384x384, .f32⟩
  | .hbm, ⟨43, _⟩ => ⟨S384x384, .f32⟩
  | .hbm, ⟨44, _⟩ => ⟨S_, .f32⟩
  | .hbm, ⟨45, _⟩ => ⟨S384x384, .f32⟩
  | .hbm, ⟨46, _⟩ => ⟨S384x384, .f32⟩
  | .hbm, ⟨47, _⟩ => ⟨S_, .f32⟩
  | .hbm, ⟨48, _⟩ => ⟨S384x384, .f32⟩
  | .hbm, ⟨49, _⟩ => ⟨S384x384, .f32⟩
  | .hbm, ⟨50, _⟩ => ⟨S384x1, .i32⟩
  | .hbm, ⟨51, _⟩ => ⟨S1x384, .i32⟩
  | .hbm, ⟨52, _⟩ => ⟨S384x384, .i32⟩
  | .hbm, ⟨53, _⟩ => ⟨S384x384, .i32⟩
  | .hbm, ⟨54, _⟩ => ⟨S384x384, .i1⟩
  | .hbm, ⟨55, _⟩ => ⟨S384x384, .f32⟩
  | .hbm, ⟨56, _⟩ => ⟨S384x384, .i32⟩
  | .hbm, ⟨57, _⟩ => ⟨S384x384, .i32⟩
  | .hbm, ⟨58, _⟩ => ⟨S_, .i32⟩
  | .hbm, ⟨59, _⟩ => ⟨S384x384, .i32⟩
  | .hbm, ⟨60, _⟩ => ⟨S384x384, .i32⟩
  | .hbm, ⟨61, _⟩ => ⟨S384x384, .i1⟩
  | .hbm, ⟨62, _⟩ => ⟨S384x384, .f32⟩
  | .hbm, ⟨63, _⟩ => ⟨S_, .f32⟩
  | .hbm, ⟨64, _⟩ => ⟨S384x384, .f32⟩
  | .hbm, ⟨65, _⟩ => ⟨S384x384, .f32⟩
  | .hbm, ⟨66, _⟩ => ⟨S384x384, .f32⟩
  | .hbm, ⟨67, _⟩ => ⟨S384x1, .f32⟩
  | .hbm, ⟨68, _⟩ => ⟨S384, .f32⟩
  | .local _ .vmem, ⟨0, _⟩ => ⟨S16x384, .f32⟩
  | .local _ .vmem, ⟨1, _⟩ => ⟨S16x384, .f32⟩
  | .local _ .vmem, ⟨2, _⟩ => ⟨S384x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | .local _ .vmem, ⟨7, _⟩ => ⟨S16x1, .f32⟩
  | .local _ .vmem, ⟨8, _⟩ => ⟨S16x1, .f32⟩
  | _, _ => ⟨S384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x128_S128x128_1_0 : S128x128.Transposes [1, 0] S128x128
  reducesTo_S384x128_S384_d1 : S384x128.ReducesTo [1] S384
  h_S_ : 0 < S_.numel
  transposes_S384x128_S128x384_1_0 : S384x128.Transposes [1, 0] S128x384
  bcast_S384_S384x1_0 : S384.BroadcastsInDim S384x1 (![0] : Fin 1 → Fin S384x1.rank)
  bcast_S384_S1x384_1 : S384.BroadcastsInDim S1x384 (![1] : Fin 1 → Fin S1x384.rank)
  bcast_S384x1_S384x384_0_1 : S384x1.BroadcastsInDim S384x384 (![0, 1] : Fin 2 → Fin S384x384.rank)
  bcast_S1x384_S384x384_0_1 : S1x384.BroadcastsInDim S384x384 (![0, 1] : Fin 2 → Fin S384x384.rank)
  bcast_S_S384x384 : S_.BroadcastsInDim S384x384 (![] : Fin 0 → Fin S384x384.rank)
  inb_S16x384_S16x384_0_0 : ∀ a, (![0, 0] : Fin 2 → Nat) a + S16x384.size a ≤ S16x384.size a
  h_S16x384 : 0 < S16x384.numel
  shapeCasts_S16x384_S16x384 : S16x384.ShapeCasts S16x384
  slices_S16x384_o0_0_S16x128 : S16x384.Slices ![0, 0] S16x128
  inb_S384x384_S128x384_0_0 : ∀ a, (![0, 0] : Fin 2 → Nat) a + S128x384.size a ≤ S384x384.size a
  h_S128x384 : 0 < S128x384.numel
  shapeCasts_S128x384_S128x384 : S128x384.ShapeCasts S128x384
  shapeCasts_S16x384_S16x1x384 : S16x384.ShapeCasts S16x1x384
  shapeCasts_S16x128_S16x128x1 : S16x128.ShapeCasts S16x128x1
  broadcasts_S16x1x384_S16x128x384 : S16x1x384.Broadcasts S16x128x384
  broadcasts_S16x128x1_S16x128x384 : S16x128x1.Broadcasts S16x128x384
  shapeCasts_S128x384_S1x128x384 : S128x384.ShapeCasts S1x128x384
  broadcasts_S1x128x384_S16x128x384 : S1x128x384.Broadcasts S16x128x384
  reduces_S16x128x384_S16x384 : S16x128x384.Reduces [1] S16x384
  slices_S16x384_o0_128_S16x128 : S16x384.Slices ![0, 128] S16x128
  inb_S384x384_S128x384_128_0 : ∀ a, (![128, 0] : Fin 2 → Nat) a + S128x384.size a ≤ S384x384.size a
  slices_S16x384_o0_256_S16x128 : S16x384.Slices ![0, 256] S16x128
  inb_S384x384_S128x384_256_0 : ∀ a, (![256, 0] : Fin 2 → Nat) a + S128x384.size a ≤ S384x384.size a
  reduces_S16x384_S16 : S16x384.Reduces [1] S16
  shapeCasts_S16_S16x1 : S16.ShapeCasts S16x1
  inb_S16x1_S16x1_0_0 : ∀ a, (![0, 0] : Fin 2 → Nat) a + S16x1.size a ≤ S16x1.size a
  h_S16x1 : 0 < S16x1.numel
  shapeCasts_S384x1_S384 : S384x1.ShapeCasts S384
  dot_S128x128_S128x128_S128x128_1_0_0_1_n_n_wf : DotDims.WF S128x128 S128x128 S128x128 [1] [0] [0] [1] [] []
  dot_S384x128_S128x128_S384x128_1_0_0_1_n_n_wf : DotDims.WF S384x128 S128x128 S384x128 [1] [0] [0] [1] [] []
  dot_S384x128_S128x384_S384x384_1_0_0_1_n_n_wf : DotDims.WF S384x128 S128x384 S384x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x384.size a ≤ S384x384.size a
  hwx0_0 : ∀ i : grid0.Coords, EltTy.bits .f32 = 32 ∨ (Rect.block (s := S384x384) S16x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x384.size a ≤ S384x384.size a
  hwx0_2 : ∀ i : grid0.Coords, EltTy.bits .f32 = 32 ∨ (Rect.block (s := S384x384) S16x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x384.size a ≤ S384x384.size a
  hwx0_3 : ∀ i : grid0.Coords, EltTy.bits .f32 = 32 ∨ (Rect.block (s := S384x384) S16x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S384x1.size a
  hwx0_4 : ∀ i : grid0.Coords, EltTy.bits .f32 = 32 ∨ (Rect.block (s := S384x1) S16x1.size (cc0_transform_4 i) (hinb0_4 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S384x128_S128x128_S384x128_1_0_0_1_n_n : DotDims S384x128 S128x128 S384x128 where
  lhsContracting := [1]
  rhsContracting := [0]
  lhsNonContracting := [0]
  rhsNonContracting := [1]
  lhsBatch := []
  rhsBatch := []
  wf := dot_S384x128_S128x128_S384x128_1_0_0_1_n_n_wf
def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

abbrev win0_0 : Pipeline.Window sig grid0 :=
  Pipeline.Window.ofSpec (Memref.whole main_v14) S16x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S384x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v53) S16x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S16x384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v54) S16x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S384x128 : Shape := ⟨2, ![384, 128]⟩
abbrev S128x128 : Shape := ⟨2, ![128, 128]⟩
abbrev S384 : Shape := ⟨1, ![384]⟩
abbrev S_ : Shape := ⟨0, ![]⟩
abbrev S128x384 : Shape := ⟨2, ![128, 384]⟩
abbrev S384x384 : Shape := ⟨2, ![384, 384]⟩
abbrev S384x1 : Shape := ⟨2, ![384, 1]⟩
abbrev S1x384 : Shape := ⟨2, ![1, 384]⟩
abbrev S384x1x384 : Shape := ⟨3, ![384, 1, 384]⟩
abbrev S384x384x1 : Shape := ⟨3, ![384, 384, 1]⟩
abbrev S384x384x384 : Shape := ⟨3, ![384, 384, 384]⟩
abbrev S1x384x384 : Shape := ⟨3, ![1, 384, 384]⟩

abbrev nBuf : Space → Nat
  | .hbm => 87
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S128x128, .f32⟩
  | .hbm, ⟨2, _⟩ => ⟨S384, .i32⟩
  | .hbm, ⟨3, _⟩ => ⟨S128x128, .f32⟩
  | .hbm, ⟨4, _⟩ => ⟨S128x128, .f32⟩
  | .hbm, ⟨5, _⟩ => ⟨S384x128, .f32⟩
  | .hbm, ⟨6, _⟩ => ⟨S384x128, .f32⟩
  | .hbm, ⟨7, _⟩ => ⟨S_, .f32⟩
  | .hbm, ⟨8, _⟩ => ⟨S384, .f32⟩
  | .hbm, ⟨9, _⟩ => ⟨S384x128, .f32⟩
  | .hbm, ⟨10, _⟩ => ⟨S128x384, .f32⟩
  | .hbm, ⟨11, _⟩ => ⟨S384x384, .f32⟩
  | .hbm, ⟨12, _⟩ => ⟨S384x1, .f32⟩
  | .hbm, ⟨13, _⟩ => ⟨S1x384, .f32⟩
  | .hbm, ⟨14, _⟩ => ⟨S384x384, .f32⟩
  | .hbm, ⟨15, _⟩ => ⟨S384x384, .f32⟩
  | .hbm, ⟨16, _⟩ => ⟨S384x384, .f32⟩
  | .hbm, ⟨17, _⟩ => ⟨S_, .f32⟩
  | .hbm, ⟨18, _⟩ => ⟨S384x384, .f32⟩
  | .hbm, ⟨19, _⟩ => ⟨S384x384, .f32⟩
  | .hbm, ⟨20, _⟩ => ⟨S384x384, .f32⟩
  | .hbm, ⟨21, _⟩ => ⟨S384x1x384, .f32⟩
  | .hbm, ⟨22, _⟩ => ⟨S384x384x1, .f32⟩
  | .hbm, ⟨23, _⟩ => ⟨S384x384x384, .f32⟩
  | .hbm, ⟨24, _⟩ => ⟨S384x384x384, .f32⟩
  | .hbm, ⟨25, _⟩ => ⟨S384x384x384, .f32⟩
  | .hbm, ⟨26, _⟩ => ⟨S_, .f32⟩
  | .hbm, ⟨27, _⟩ => ⟨S384x384x384, .f32⟩
  | .hbm, ⟨28, _⟩ => ⟨S384x384x384, .f32⟩
  | .hbm, ⟨29, _⟩ => ⟨S128x128, .f32⟩
  | .hbm, ⟨30, _⟩ => ⟨S128x128, .f32⟩
  | .hbm, ⟨31, _⟩ => ⟨S384x128, .f32⟩
  | .hbm, ⟨32, _⟩ => ⟨S384x128, .f32⟩
  | .hbm, ⟨33, _⟩ => ⟨S_, .f32⟩
  | .hbm, ⟨34, _⟩ => ⟨S384, .f32⟩
  | .hbm, ⟨35, _⟩ => ⟨S384x128, .f32⟩
  | .hbm, ⟨36, _⟩ => ⟨S128x384, .f32⟩
  | .hbm, ⟨37, _⟩ => ⟨S384x384, .f32⟩
  | .hbm, ⟨38, _⟩ => ⟨S384x1, .f32⟩
  | .hbm, ⟨39, _⟩ => ⟨S1x384, .f32⟩
  | .hbm, ⟨40, _⟩ => ⟨S384x384, .f32⟩
  | .hbm, ⟨41, _⟩ => ⟨S384x384, .f32⟩
  | .hbm, ⟨42, _⟩ => ⟨S384x384, .f32⟩
  | .hbm, ⟨43, _⟩ => ⟨S_, .f32⟩
  | .hbm, ⟨44, _⟩ => ⟨S384x384, .f32⟩
  | .hbm, ⟨45, _⟩ => ⟨S384x384, .f32⟩
  | .hbm, ⟨46, _⟩ => ⟨S384x384, .f32⟩
  | .hbm, ⟨47, _⟩ => ⟨S_, .f32⟩
  | .hbm, ⟨48, _⟩ => ⟨S384x384, .f32⟩
  | .hbm, ⟨49, _⟩ => ⟨S384x384, .f32⟩
  | .hbm, ⟨50, _⟩ => ⟨S384x384, .f32⟩
  | .hbm, ⟨51, _⟩ => ⟨S_, .f32⟩
  | .hbm, ⟨52, _⟩ => ⟨S384x384, .f32⟩
  | .hbm, ⟨53, _⟩ => ⟨S384x384, .f32⟩
  | .hbm, ⟨54, _⟩ => ⟨S_, .f32⟩
  | .hbm, ⟨55, _⟩ => ⟨S384x384, .f32⟩
  | .hbm, ⟨56, _⟩ => ⟨S384x384, .f32⟩
  | .hbm, ⟨57, _⟩ => ⟨S1x384x384, .f32⟩
  | .hbm, ⟨58, _⟩ => ⟨S384x384x384, .f32⟩
  | .hbm, ⟨59, _⟩ => ⟨S384x384x384, .f32⟩
  | .hbm, ⟨60, _⟩ => ⟨S1x384, .i32⟩
  | .hbm, ⟨61, _⟩ => ⟨S384x1, .i32⟩
  | .hbm, ⟨62, _⟩ => ⟨S384x384, .i32⟩
  | .hbm, ⟨63, _⟩ => ⟨S384x384, .i32⟩
  | .hbm, ⟨64, _⟩ => ⟨S384x384, .i1⟩
  | .hbm, ⟨65, _⟩ => ⟨S384x384, .i1⟩
  | .hbm, ⟨66, _⟩ => ⟨S384x384, .i32⟩
  | .hbm, ⟨67, _⟩ => ⟨S384x384, .i32⟩
  | .hbm, ⟨68, _⟩ => ⟨S_, .i32⟩
  | .hbm, ⟨69, _⟩ => ⟨S384x384, .i32⟩
  | .hbm, ⟨70, _⟩ => ⟨S384x384, .i32⟩
  | .hbm, ⟨71, _⟩ => ⟨S384x384, .i1⟩
  | .hbm, ⟨72, _⟩ => ⟨S384x384, .i1⟩
  | .hbm, ⟨73, _⟩ => ⟨S384x384x1, .i1⟩
  | .hbm, ⟨74, _⟩ => ⟨S_, .f32⟩
  | .hbm, ⟨75, _⟩ => ⟨S_, .f32⟩
  | .hbm, ⟨76, _⟩ => ⟨S384x384x384, .i1⟩
  | .hbm, ⟨77, _⟩ => ⟨S384x384x384, .f32⟩
  | .hbm, ⟨78, _⟩ => ⟨S384x384x384, .f32⟩
  | .hbm, ⟨79, _⟩ => ⟨S_, .f32⟩
  | .hbm, ⟨80, _⟩ => ⟨S384x384, .f32⟩
  | .hbm, ⟨81, _⟩ => ⟨S_, .f32⟩
  | .hbm, ⟨82, _⟩ => ⟨S_, .f32⟩
  | .hbm, ⟨83, _⟩ => ⟨S384x384, .f32⟩
  | .hbm, ⟨84, _⟩ => ⟨S384x384, .f32⟩
  | .hbm, ⟨85, _⟩ => ⟨S_, .f32⟩
  | .hbm, ⟨86, _⟩ => ⟨S384, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_c : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_7 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v62 : Ref sig .tc := ⟨.hbm, 78, rfl⟩
abbrev main_cst_8 : Ref sig .tc := ⟨.hbm, 79, rfl⟩
abbrev main_v63 : Ref sig .tc := ⟨.hbm, 80, rfl⟩
abbrev main_cst_9 : Ref sig .tc := ⟨.hbm, 81, rfl⟩
abbrev main_call1_v0 : Ref sig .tc := ⟨.hbm, 82, rfl⟩
abbrev main_call1_v1 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩

abbrev nD : Nat := 1
abbrev τ : Topo := Topo.v7x

variable {F : FTy → Type} [FloatOps F]

class Facts₀ : Prop where
  transposes_S128x128_S128x128_1_0 : S128x128.Transposes [1, 0] S128x128
  reducesTo_S384x128_S384_d1 : S384x128.ReducesTo [1] S384
  h_S_ : 0 < S_.numel
  transposes_S384x128_S128x384_1_0 : S384x128.Transposes [1, 0] S128x384
  bcast_S384_S384x1_0 : S384.BroadcastsInDim S384x1 (![0] : Fin 1 → Fin S384x1.rank)
  bcast_S384_S1x384_1 : S384.BroadcastsInDim S1x384 (![1] : Fin 1 → Fin S1x384.rank)
  bcast_S384x1_S384x384_0_1 : S384x1.BroadcastsInDim S384x384 (![0, 1] : Fin 2 → Fin S384x384.rank)
  bcast_S1x384_S384x384_0_1 : S1x384.BroadcastsInDim S384x384 (![0, 1] : Fin 2 → Fin S384x384.rank)
  bcast_S_S384x384 : S_.BroadcastsInDim S384x384 (![] : Fin 0 → Fin S384x384.rank)
  bcast_S384x384_S384x1x384_0_2 : S384x384.BroadcastsInDim S384x1x384 (![0, 2] : Fin 2 → Fin S384x1x384.rank)
  bcast_S384x384_S384x384x1_0_1 : S384x384.BroadcastsInDim S384x384x1 (![0, 1] : Fin 2 → Fin S384x384x1.rank)
  bcast_S384x1x384_S384x384x384_0_1_2 : S384x1x384.BroadcastsInDim S384x384x384 (![0, 1, 2] : Fin 3 → Fin S384x384x384.rank)
  bcast_S384x384x1_S384x384x384_0_1_2 : S384x384x1.BroadcastsInDim S384x384x384 (![0, 1, 2] : Fin 3 → Fin S384x384x384.rank)
  bcast_S_S384x384x384 : S_.BroadcastsInDim S384x384x384 (![] : Fin 0 → Fin S384x384x384.rank)
  bcast_S384x384_S1x384x384_1_2 : S384x384.BroadcastsInDim S1x384x384 (![1, 2] : Fin 2 → Fin S1x384x384.rank)
  bcast_S1x384x384_S384x384x384_0_1_2 : S1x384x384.BroadcastsInDim S384x384x384 (![0, 1, 2] : Fin 3 → Fin S384x384x384.rank)
  reducesTo_S384x384x384_S384x384_d1 : S384x384x384.ReducesTo [1] S384x384
  reducesTo_S384x384_S384_d1 : S384x384.ReducesTo [1] S384
  dot_S128x128_S128x128_S128x128_1_0_0_1_n_n_wf : DotDims.WF S128x128 S128x128 S128x128 [1] [0] [0] [1] [] []
  dot_S384x128_S128x128_S384x128_1_0_0_1_n_n_wf : DotDims.WF S384x128 S128x128 S384x128 [1] [0] [0] [1] [] []
  dot_S384x128_S128x384_S384x384_1_0_0_1_n_n_wf : DotDims.WF S384x128 S128x384 S384x384 [1] [0] [0] [1] [] []

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S384x128_S128x128_S384x128_1_0_0_1_n_n : DotDims S384x128 S128x128 S384x128 where
  lhsContracting := [1]
  rhsContracting := [0]
  lhsNonContracting := [0]
  rhsNonContracting := [1]
  lhsBatch := []
  rhsBatch := []
  wf := dot_S384x128_S128x128_S384x128_1_0_0_1_n_n_wf
def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

class Facts : Prop extends Facts₀ where

variable [Facts]
-- ==== Proof.Spec.lean ====
/-
  The function both programs compute, over the extended reals, and the two laws that join their arrangements.

  Data: a square array `C` of squared distances, a square array `D` of denominators, and a relation `s` ("same class").
  For a row `i` and a column `k`, the inner value is the maximum over `j` of the margin
  `max (C i k - C i j) 0 / D j k` for the `j` of the class of `i` other than `i` itself, and `0` for every other `j`;
  the result at `i` is the minimum over the columns `k` outside the class of `i` of the inner value (a column inside the
  class contributes the top element).

  The kernel arranges the same numbers differently: it multiplies by a reciprocal computed beforehand instead of
  dividing, it replaces `C i j` at an excluded `j` by `+∞` (so that the clamped difference is `0`), and it takes the
  maximum over `j` in three consecutive chunks of 128. `term_valid`, `term_excluded` and `max_chunks` are those laws.
  None needs a finiteness assumption: `x - ⊤ = ⊥` and `0 * y = 0` hold for every extended real, and a denominator that is
  not zero divides as its inverse multiplies.
-/
import Idealize.ShloMosaic.PureOps.Ideal

noncomputable section

namespace Cert.Cube

open Idealize.ShloMosaic

/-- The maximum of `f` over `Fin n`, from the bottom element. -/
def maxOver {n : Nat} (f : Fin n → EReal) : EReal := (Finset.univ : Finset (Fin n)).fold max ⊥ f

/-- The minimum of `f` over `Fin n`, from the top element. -/
def minOver {n : Nat} (f : Fin n → EReal) : EReal := (Finset.univ : Finset (Fin n)).fold min ⊤ f

/-- "Same class": two rows carry equal labels. -/
def sameClass (y : Fin 384 → BitVec 32) (i j : Fin 384) : Prop := y i = y j

instance (y : Fin 384 → BitVec 32) (i j : Fin 384) : Decidable (sameClass y i j) :=
  inferInstanceAs (Decidable (y i = y j))

/-- One term of the inner maximum: the clamped difference over the denominator for a `j` of `i`'s class other than `i`,
    zero otherwise. -/
def margin (C D : Fin 384 → Fin 384 → EReal) (s : Fin 384 → Fin 384 → Prop) [∀ i j, Decidable (s i j)]
    (i j k : Fin 384) : EReal :=
  if s i j ∧ i ≠ j then Ideal.div (max (C i k - C i j) 0) (D j k) else 0

/-- The inner maximum over `j`. -/
def inner (C D : Fin 384 → Fin 384 → EReal) (s : Fin 384 → Fin 384 → Prop) [∀ i j, Decidable (s i j)]
    (i k : Fin 384) : EReal :=
  maxOver fun j => margin C D s i j k

/-- The result at row `i`: the minimum over the columns outside `i`'s class of the inner maximum. -/
def result (C D : Fin 384 → Fin 384 → EReal) (s : Fin 384 → Fin 384 → Prop) [∀ i j, Decidable (s i j)]
    (i : Fin 384) : EReal :=
  minOver fun k => if s i k then ⊤ else inner C D s i k

/-- Multiplying by the reciprocal of a denominator that is not zero is dividing by it. -/
theorem term_valid (x d : EReal) (hd : d ≠ 0) : x * Ideal.div 1 d = Ideal.div x d := by
  unfold Ideal.div
  rw [if_neg hd, if_neg hd, one_mul]

/-- Against `+∞` the clamped difference vanishes, whatever it is multiplied by. -/
theorem term_excluded (x e : EReal) : max (x - ⊤) 0 * e = 0 := by
  have h : x - (⊤ : EReal) = ⊥ := by
    rw [sub_eq_add_neg, EReal.neg_top, EReal.add_bot]
  rw [h, max_eq_right bot_le, zero_mul]

/-- Column `o + j` of a row of 384, for a chunk of 128 starting at `o`. -/
def chunkIdx (o : Nat) (h : o + 128 ≤ 384) (j : Fin 128) : Fin 384 := ⟨o + j.val, by have := j.isLt; omega⟩

theorem le_maxOver {n : Nat} (f : Fin n → EReal) (j : Fin n) : f j ≤ maxOver f :=
  (Finset.le_fold_max _).2 (Or.inr ⟨j, Finset.mem_univ j, le_rfl⟩)

theorem maxOver_le {n : Nat} (f : Fin n → EReal) (c : EReal) (h : ∀ j, f j ≤ c) : maxOver f ≤ c :=
  (Finset.fold_max_le _).2 ⟨bot_le, fun j _ => h j⟩

/-- The maximum over 384 columns is the maximum of the maxima over the three chunks of 128, taken from the bottom
    element in the order the kernel takes them. -/
theorem max_chunks (f : Fin 384 → EReal) :
    max (max (max ⊥ (maxOver fun j => f (chunkIdx 0 (by omega) j))) (maxOver fun j => f (chunkIdx 128 (by omega) j)))
        (maxOver fun j => f (chunkIdx 256 (by omega) j))
      = maxOver f := by
  apply le_antisymm
  · refine max_le (max_le (max_le bot_le ?_) ?_) ?_
    · exact maxOver_le _ _ fun j => le_maxOver f _
    · exact maxOver_le _ _ fun j => le_maxOver f _
    · exact maxOver_le _ _ fun j => le_maxOver f _
  · refine maxOver_le _ _ fun j => ?_
    by_cases h1 : j.val < 128
    · have e : j = chunkIdx 0 (by omega) ⟨j.val, h1⟩ := Fin.ext (by simp [chunkIdx])
      refine le_max_of_le_left (le_max_of_le_left (le_max_of_le_right ?_))
      rw [e]; exact le_maxOver (fun j => f (chunkIdx 0 (by omega) j)) ⟨j.val, h1⟩
    · by_cases h2 : j.val < 256
      · have e : j = chunkIdx 128 (by omega) ⟨j.val - 128, by omega⟩ := Fin.ext (by simp [chunkIdx]; omega)
        refine le_max_of_le_left (le_max_of_le_right ?_)
        rw [e]; exact le_maxOver (fun j => f (chunkIdx 128 (by omega) j)) ⟨j.val - 128, by omega⟩
      · have e : j = chunkIdx 256 (by omega) ⟨j.val - 256, by have := j.isLt; omega⟩ :=
          Fin.ext (by simp [chunkIdx]; omega)
        refine le_max_of_le_right ?_
        rw [e]; exact le_maxOver (fun j => f (chunkIdx 256 (by omega) j)) ⟨j.val - 256, by have := j.isLt; omega⟩

end Cert.Cube

end
-- ==== Proof.Consts.lean ====
/-
  The float literals the two programs spell, as the extended reals their patterns denote: the zero, one and
  one-half words, the two infinities, and the positivity of the small constant that bounds the denominators
  from below. Stated once here so that no other module unfolds a pattern.
-/
import Idealize.ShloMosaic.PureOps.Ideal

noncomputable section

namespace Cert.CubeConsts

open Idealize.ShloMosaic

/-- The pattern of `+0.0` denotes `0`. -/
theorem zero : Ideal.ofBits .f32 0x00000000#32 = 0 := by
  simp [Ideal.ofBits, Ideal.ieee]

/-- The pattern of `1.0` denotes `1`. -/
theorem one : Ideal.ofBits .f32 0x3F800000#32 = 1 := by
  simp [Ideal.ofBits, Ideal.ieee, -EReal.coe_mul]; norm_num

/-- The pattern of `0.5` denotes the real `1/2`. -/
theorem half : Ideal.ofBits .f32 0x3F000000#32 = ((1 / 2 : ℝ) : EReal) := by
  simp [Ideal.ofBits, Ideal.ieee, -EReal.coe_mul]; norm_num

/-- The pattern of `+∞` denotes the top element. -/
theorem pinf : Ideal.ofBits .f32 0x7F800000#32 = ⊤ := by
  simp [Ideal.ofBits, Ideal.ieee]

/-- The pattern of `-∞` denotes the bottom element. -/
theorem ninf : Ideal.ofBits .f32 0xFF800000#32 = ⊥ := by
  simp [Ideal.ofBits, Ideal.ieee]

/-- The small constant `≈ 1e-6` that the denominators are clamped to from below is a positive real. -/
theorem eps_pos : (0 : EReal) < Ideal.ofBits .f32 0x358637BD#32 := by
  simp [Ideal.ofBits, Ideal.ieee, -EReal.coe_mul]

end Cert.CubeConsts

end
-- ==== Proof.Bits.lean ====
/-
  How the two programs encode the two relations of the problem as words, and what the kernel's float masks say.

  * "same class": the one-bit word of an integer comparison of two labels is one iff the labels are equal;
  * "the diagonal": the comparison of a row counter (plus zero) with a column counter, both below 384, is one iff
    row and column coincide;
  * the kernel turns such bits into the floats 0 and 1 and tests them against one half: a bit read as a float
    exceeds one half iff the bit is one, and the product `same · (1 - diagonal)` exceeds one half iff the bit "same"
    is one and the bit "diagonal" is not.
-/
import Idealize.ShloMosaic.PureOps.Ideal
import Idealize.ShloMosaic.Lib.Affine
import proofs.«133227_j87093346828907_2_alg».proof.Proof.Consts

noncomputable section

namespace Cert.CubeBits

open Idealize.ShloMosaic

/-- A one-bit word is zero or one. -/
theorem bit_cases (b : BitVec 1) : b = 0#1 ∨ b = 1#1 := by revert b; decide

/-- The diagonal test: row counter plus zero against column counter. -/
theorem eye_iff (i j : Fin 384) :
    IntOp.cmpi .eq (IntOp.addi (BitVec.ofNat 32 i.val) 0#32) (BitVec.ofNat 32 j.val) = 1#1 ↔ i = j := by
  rw [IntOp.cmpi_eq]
  have h0 : IntOp.addi (BitVec.ofNat 32 i.val) 0#32 = BitVec.ofNat 32 i.val := by
    unfold IntOp.addi; exact BitVec.add_zero _
  rw [h0]
  constructor
  · intro h
    have := congrArg BitVec.toNat h
    rw [BitVec.toNat_ofNat, BitVec.toNat_ofNat] at this
    have hi := i.isLt; have hj := j.isLt
    exact Fin.ext (by omega)
  · rintro rfl; rfl

theorem not_half_lt_zero : ¬ ((1 / 2 : ℝ) : EReal) < 0 := by
  rw [← EReal.coe_zero, EReal.coe_lt_coe_iff]; norm_num

theorem half_lt_one : ((1 / 2 : ℝ) : EReal) < 1 := by
  rw [← EReal.coe_one, EReal.coe_lt_coe_iff]; norm_num

theorem bit0_real : (FloatOps.uitofp (F := Ideal) .f32 (0#1 : BitVec 1) : EReal) = 0 := by
  show (((0#1 : BitVec 1).toNat : ℝ) : EReal) = 0
  simp

theorem bit1_real : (FloatOps.uitofp (F := Ideal) .f32 (1#1 : BitVec 1) : EReal) = 1 := by
  show (((1#1 : BitVec 1).toNat : ℝ) : EReal) = 1
  simp

/-- A bit read as an unsigned float (0 or 1) exceeds one half iff the bit is one. -/
theorem half_lt_bit (b : BitVec 1) :
    Ideal.ofBits .f32 0x3F000000#32 < (FloatOps.uitofp (F := Ideal) .f32 b : EReal) ↔ b = 1#1 := by
  rw [Cert.CubeConsts.half]
  rcases bit_cases b with h | h <;> subst h
  · refine iff_of_false ?_ (by decide)
    rw [bit0_real]; exact not_half_lt_zero
  · refine iff_of_true ?_ rfl
    rw [bit1_real]; exact half_lt_one

/-- The kernel's mask `same · (1 - diagonal)`, the two bits read as floats, exceeds one half iff "same" is one and
    "diagonal" is not. -/
theorem half_lt_mask (s e : BitVec 1) :
    Ideal.ofBits .f32 0x3F000000#32
        < (FloatOps.uitofp (F := Ideal) .f32 s : EReal) * (Ideal.ofBits .f32 0x3F800000#32 - (FloatOps.uitofp (F := Ideal) .f32 e : EReal))
      ↔ s = 1#1 ∧ ¬ e = 1#1 := by
  rw [Cert.CubeConsts.half, Cert.CubeConsts.one]
  rcases bit_cases s with hs | hs <;> rcases bit_cases e with he | he <;> subst hs <;> subst he
  · refine iff_of_false ?_ (by decide)
    rw [bit0_real, zero_mul]; exact not_half_lt_zero
  · refine iff_of_false ?_ (by decide)
    rw [bit0_real, zero_mul]; exact not_half_lt_zero
  · refine iff_of_true ?_ (by decide)
    rw [bit1_real, bit0_real, one_mul, sub_zero]; exact half_lt_one
  · refine iff_of_false ?_ (by decide)
    rw [bit1_real, one_mul, ← EReal.coe_one, ← EReal.coe_sub, sub_self, EReal.coe_zero]; exact not_half_lt_zero

end Cert.CubeBits

end
-- ==== Proof.RefValue.lean ====
/-
  The reference's result, read at a row `i`, is the specification's `result` of the reference's own arrays:
  `C` the array of squared distances (its stage 15), `D` the array of denominators (its stage 45), and the labels.

  The reference forms the cube `relu (C i k - C i j) / D j k`, zeroes the terms whose `j` is outside `i`'s class or is
  `i` itself, takes the maximum over `j` from `-∞`, replaces the columns `k` inside `i`'s class by `+∞`, and takes the
  minimum over `k` from `+∞`. Each host reduction over one axis is a fold over that axis's coordinates; every other
  operation reads one element of each operand. Neither `C` nor `D` is opened.
-/
import proofs.«133227_j87093346828907_2_alg».proof.Proof.RefReadP
import proofs.«133227_j87093346828907_2_alg».proof.Proof.Spec
import proofs.«133227_j87093346828907_2_alg».proof.Proof.Bits
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx

variable (x0 : (⟨S384x128, .f32⟩ : BufTy).Contents (Elt Ideal)) (x1 : (⟨S128x128, .f32⟩ : BufTy).Contents (Elt Ideal))
  (x2 : (⟨S384, .i32⟩ : BufTy).Contents (Elt Ideal))

/-- The squared distances, as the reference computes them. -/
def C : Fin 384 → Fin 384 → EReal := fun i k => val_main_v15 (F := Ideal) x0 x1 (ix2 i k)

/-- The denominators, as the reference computes them. -/
def D : Fin 384 → Fin 384 → EReal := fun j k => val_main_v45 (F := Ideal) x0 x1 (ix2 j k)

/-- The labels. -/
def Y : Fin 384 → BitVec 32 := fun a => x2 (ix1 a)

/-- A denominator is clamped from below by a positive constant, so it is not zero. -/
theorem D_ne_zero (j k : Fin 384) : D x0 x1 j k ≠ 0 := by
  unfold D
  rw [val_main_v45_apply, val_main_v44_apply, val_main_cst_6_apply]
  exact ne_of_gt (lt_of_lt_of_le Cert.CubeConsts.eps_pos (le_max_right _ _))

/-! ## Index arithmetic of the broadcasts -/

theorem idx_col (i k : Fin 384) : idx_main_v49 (idx_main_v51 (ix2 i k)) = ix1 k :=
  funext fun a => match a with | ⟨0, _⟩ => rfl
theorem idx_row (i k : Fin 384) : idx_main_v50 (idx_main_v52 (ix2 i k)) = ix1 i :=
  funext fun a => match a with | ⟨0, _⟩ => rfl
theorem idx_ij (i j k : Fin 384) : idx_main_v61 (idx_main_call0_v1 (ix3 i j k)) = ix2 i j :=
  funext fun a => match a with | ⟨0, _⟩ => rfl | ⟨1, _⟩ => rfl
theorem idx_ik (i j k : Fin 384) : idx_main_v16 (idx_main_v18 (ix3 i j k)) = ix2 i k :=
  funext fun a => match a with | ⟨0, _⟩ => rfl | ⟨1, _⟩ => rfl
theorem idx_ij' (i j k : Fin 384) : idx_main_v17 (idx_main_v19 (ix3 i j k)) = ix2 i j :=
  funext fun a => match a with | ⟨0, _⟩ => rfl | ⟨1, _⟩ => rfl
theorem idx_jk (i j k : Fin 384) : idx_main_v46 (idx_main_v47 (ix3 i j k)) = ix2 j k :=
  funext fun a => match a with | ⟨0, _⟩ => rfl | ⟨1, _⟩ => rfl

/-! ## The two masks -/

/-- The label array broadcast along the columns reads the row's label; -/
theorem row_apply (i k : Fin 384) : val_main_v52 (F := Ideal) x2 (ix2 i k) = Y x2 i := by
  rw [val_main_v52_apply, val_main_v50_apply, idx_row]; rfl

/-- broadcast along the rows, the column's. -/
theorem col_apply (i k : Fin 384) : val_main_v51 (F := Ideal) x2 (ix2 i k) = Y x2 k := by
  rw [val_main_v51_apply, val_main_v49_apply, idx_col]; rfl

/-- The diagonal bit: the row counter plus zero against the column counter. -/
theorem eye_apply (i j : Fin 384) :
    val_main_v59 (F := Ideal) (ix2 i j) = IntOp.cmpi .eq (IntOp.addi (BitVec.ofNat 32 i.val) 0#32) (BitVec.ofNat 32 j.val) := by
  rw [val_main_v59_apply, val_main_v58_apply, val_main_v55_apply, val_main_v57_apply, val_main_c_apply, val_main_v56_apply]

/-- The reference's "same" bit at `(i, k)` compares the label of `k` with the label of `i`. -/
theorem same_apply (i k : Fin 384) :
    val_main_v53 (F := Ideal) x2 (ix2 i k) = IntOp.cmpi .eq (Y x2 k) (Y x2 i) := by
  rw [val_main_v53_apply, val_main_v51_apply, val_main_v49_apply, val_main_v52_apply, val_main_v50_apply, idx_col, idx_row]
  rfl

/-- The reference's "zero this term" bit at `(i, j)`: `j` outside `i`'s class, or `j = i`. -/
theorem zero_bit_iff (i j : Fin 384) :
    val_main_v60 (F := Ideal) x2 (ix2 i j) = 1#1 ↔ ¬ (Cube.sameClass (Y x2) i j ∧ i ≠ j) := by
  rw [val_main_v60_apply, val_main_v54_apply, same_apply, val_main_v59_apply, val_main_v58_apply, val_main_v55_apply,
    val_main_v57_apply, val_main_c_apply, val_main_v56_apply, IntOp.ori_eq_one, IntOp.not_eq_one, IntOp.cmpi_eq]
  have he := Cert.CubeBits.eye_iff i j
  unfold Cube.sameClass
  constructor
  · rintro (h | h) ⟨hs, hne⟩
    · exact h hs.symm
    · exact hne (he.1 h)
  · intro h
    by_cases hs : Y x2 j = Y x2 i
    · right
      exact he.2 (by_contra fun hne => h ⟨hs.symm, hne⟩)
    · left; exact hs

/-! ## The cube, the inner maximum, the result -/

/-- One element of the masked cube is the specification's margin. -/
theorem margin_eq (i j k : Fin 384) :
    val_main_v62 (F := Ideal) x0 x1 x2 (ix3 i j k) = Cube.margin (C x0 x1) (D x0 x1) (Cube.sameClass (Y x2)) i j k := by
  rw [val_main_v62_apply, val_main_call0_v1_apply, val_main_v61_apply, idx_ij,
    val_main_call0_v2_apply, val_main_call0_v0_apply, val_main_cst_7_apply,
    val_main_v48_apply, val_main_v22_apply, val_main_v20_apply, val_main_v18_apply, val_main_v16_apply, idx_ik,
    val_main_v19_apply, val_main_v17_apply, idx_ij', val_main_v21_apply, val_main_cst_1_apply,
    val_main_v47_apply, val_main_v46_apply, idx_jk]
  unfold Cube.margin
  by_cases h : Cube.sameClass (Y x2) i j ∧ i ≠ j
  · have hb : val_main_v60 (F := Ideal) x2 (ix2 i j) = 0#1 :=
      eq_zero_of_ne_one fun h1 => ((zero_bit_iff x2 i j).1 h1) h
    rw [hb, select_zero, if_pos h]
    show Ideal.div (max (C x0 x1 i k - C x0 x1 i j) (Ideal.ofBits .f32 0x00000000#32)) (D x0 x1 j k) = _
    rw [Cert.CubeConsts.zero]
  · have hb : val_main_v60 (F := Ideal) x2 (ix2 i j) = 1#1 := (zero_bit_iff x2 i j).2 h
    rw [hb, select_one, if_neg h]
    exact Cert.CubeConsts.zero

theorem reduces_j : S384x384x384.Reduces [1] S384x384 := by decide
theorem reduces_k : S384x384.Reduces [1] S384 := by decide

theorem lift_j (i j k : Fin 384) : reduces_j.lift (ix2 i k) j = ix3 i j k :=
  funext fun a => Fin.ext (match a with | ⟨0, _⟩ => rfl | ⟨1, _⟩ => rfl | ⟨2, _⟩ => rfl)
theorem lift_k (i k : Fin 384) : reduces_k.lift (ix1 i) k = ix2 i k :=
  funext fun a => Fin.ext (match a with | ⟨0, _⟩ => rfl | ⟨1, _⟩ => rfl)

/-- The maximum over `j` of the masked cube is the specification's inner maximum. -/
theorem inner_eq (i k : Fin 384) :
    val_main_v63 (F := Ideal) x0 x1 x2 (ix2 i k) = Cube.inner (C x0 x1) (D x0 x1) (Cube.sameClass (Y x2)) i k := by
  unfold val_main_v63
  rw [Host.reduce_eq_fold_single FloatOps.maximumf _ _ reducesTo_S384x384x384_S384x384_d1 reduces_j h_S_ (ix2 i k)]
  unfold Cube.inner Cube.maxOver
  show Finset.fold max (Ideal.ofBits .f32 0xFF800000#32)
      (fun j : Fin 384 => val_main_v62 (F := Ideal) x0 x1 x2 (reduces_j.lift (ix2 i k) j)) Finset.univ = _
  rw [Cert.CubeConsts.ninf]
  refine Finset.fold_congr fun j _ => ?_
  rw [lift_j]
  exact margin_eq x0 x1 x2 i j k

/-- THE REFERENCE'S RESULT at row `i` is the specification's. -/
theorem result_eq (i : Fin 384) :
    val_main_v65 (F := Ideal) x0 x1 x2 (ix1 i) = Cube.result (C x0 x1) (D x0 x1) (Cube.sameClass (Y x2)) i := by
  unfold val_main_v65
  rw [Host.reduce_eq_fold_single FloatOps.minimumf _ _ reducesTo_S384x384_S384_d1 reduces_k h_S_ (ix1 i)]
  unfold Cube.result Cube.minOver
  show Finset.fold min (Ideal.ofBits .f32 0x7F800000#32)
      (fun k : Fin 384 => val_main_v64 (F := Ideal) x0 x1 x2 (reduces_k.lift (ix1 i) k)) Finset.univ = _
  rw [Cert.CubeConsts.pinf]
  refine Finset.fold_congr fun k _ => ?_
  rw [lift_k, val_main_v64_apply, same_apply, val_main_call1_v1_apply, val_main_call1_v0_apply, val_main_cst_9_apply]
  by_cases h : Cube.sameClass (Y x2) i k
  · have hb : IntOp.cmpi .eq (Y x2 k) (Y x2 i) = 1#1 := IntOp.cmpi_eq.2 h.symm
    rw [hb, select_one, if_pos h]
    exact Cert.CubeConsts.pinf
  · have hb : IntOp.cmpi .eq (Y x2 k) (Y x2 i) = 0#1 :=
      eq_zero_of_ne_one fun h1 => h (IntOp.cmpi_eq.1 h1).symm
    rw [hb, select_zero, if_neg h]
    exact inner_eq x0 x1 x2 i k

end Cert.ReferenceIdeal.RefValue

end
-- ==== Proof.RowValue.lean ====
/-
  One row of the result as the kernel arranges it, and the law that it is the specification's `result`.

  For a row with distances `c`, the kernel holds the float mask `v` of the admitted `j` (above one half: admitted), the float
  mask `w` of the excluded columns, and the reciprocals `e j k` of the denominators. It replaces `c j` by `+∞` at every
  `j` that is not admitted, forms `max (c k - c' j) 0 * e j k`, takes the maximum over `j` chunk by chunk (three chunks of
  128, from `-∞`), replaces the excluded columns by `+∞` and takes the minimum over the columns.

  It is the specification's value: an admitted term is the reference's quotient because a denominator that is not zero
  divides as its reciprocal multiplies; a term that is not admitted vanishes because `x - ⊤ = ⊥`, `max ⊥ 0 = 0` and
  `0 * y = 0` on the extended reals; the three chunk maxima make the maximum over all `j`.
-/
import proofs.«133227_j87093346828907_2_alg».proof.Proof.Spec

noncomputable section

namespace Cert.Cube

open Idealize.ShloMosaic

/-- One half, as the kernel spells it. -/
abbrev halfLit : EReal := Ideal.ofBits .f32 0x3F000000#32

/-- The row entry the kernel subtracts: the distance where the mask admits `j`, `+∞` elsewhere. -/
def poisoned (c v : Fin 384 → EReal) (j : Fin 384) : EReal := if halfLit < v j then c j else ⊤

/-- The maximum over one chunk of 128 values of `j`, starting at `o`. -/
def chunkMax (c v : Fin 384 → EReal) (e : Fin 384 → Fin 384 → EReal) (o : Nat) (h : o + 128 ≤ 384) (k : Fin 384) : EReal :=
  maxOver fun j : Fin 128 => max (c k - poisoned c v (chunkIdx o h j)) 0 * e (chunkIdx o h j) k

/-- One row's value as the kernel forms it. -/
def rowValue (c v w : Fin 384 → EReal) (e : Fin 384 → Fin 384 → EReal) : EReal :=
  minOver fun k => if halfLit < w k then ⊤
    else max (max (max ⊥ (chunkMax c v e 0 (by omega) k)) (chunkMax c v e 128 (by omega) k)) (chunkMax c v e 256 (by omega) k)

/-- The kernel's row value is the specification's result at that row. -/
theorem rowValue_eq (C D : Fin 384 → Fin 384 → EReal) (s : Fin 384 → Fin 384 → Prop) [∀ i j, Decidable (s i j)] (i : Fin 384)
    (c v w : Fin 384 → EReal) (e : Fin 384 → Fin 384 → EReal)
    (hc : ∀ k, c k = C i k) (hv : ∀ j, halfLit < v j ↔ (s i j ∧ i ≠ j)) (hw : ∀ k, halfLit < w k ↔ s i k)
    (he : ∀ j k, e j k = Ideal.div 1 (D j k)) (hD : ∀ j k, D j k ≠ 0) :
    rowValue c v w e = result C D s i := by
  unfold rowValue result minOver
  refine Finset.fold_congr fun k _ => ?_
  refine if_congr (hw k) rfl ?_
  unfold inner
  refine (max_chunks fun j => max (c k - poisoned c v j) 0 * e j k).trans ?_
  unfold maxOver
  refine Finset.fold_congr fun j _ => ?_
  unfold margin poisoned
  by_cases h : s i j ∧ i ≠ j
  · rw [if_pos ((hv j).2 h), if_pos h, he, hc, hc, term_valid _ _ (hD j k)]
  · rw [if_neg (fun h' => h ((hv j).1 h')), if_neg h, term_excluded]

end Cert.Cube

end
-- ==== Proof.KernelPayload.lean ====
/-
  The kernel body's arithmetic at an index.

  The body holds a block of 16 rows. It loads the rows' distances (`v0`), the mask of the admitted `j` (`v2`), the
  reciprocals in three slabs of 128 rows (`v10`, `v25`, `v40`) and the mask of the excluded columns (`v54`), and stores
  one number per row. Read at row `a`, that number is `Cube.rowValue` of the row's data: every layout operation reads one
  element of its operand (a cast adds or drops a unit axis, a broadcast repeats along one axis, a slice shifts the column),
  a reduction over one axis is a fold over that axis's coordinates, and a select on `mask > 1/2` is an if.
-/
import proofs.«133227_j87093346828907_2_alg».proof.Proof.Gen.KernelIdeal.Skeleton
import proofs.«133227_j87093346828907_2_alg».proof.Proof.RowValue
import proofs.«133227_j87093346828907_2_alg».proof.Proof.Consts
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-! ## Layout operations at an index -/

/-- A row block viewed `[16, 1, 384]` and repeated along the middle axis reads the row's entry. -/
theorem row_bc (row : FVec Ideal S16x384 .f32) (h1 : S16x384.ShapeCasts S16x1x384) (h2 : S16x1x384.Broadcasts S16x128x384)
    (a : Fin 16) (j : Fin 128) (k : Fin 384) :
    broadcastTo S16x128x384 (shapeCast S16x1x384 row h1) h2 (ix3 a j k) = row (ix2 a k) := by
  refine (broadcastTo_apply _ h2 (ix3 a j k) (ix3 a (0 : Fin 1) k) fun ax => ?_).trans
    (shapeCast_apply row h1 (ix3 a (0 : Fin 1) k) (ix2 a k) ?_)
  · match ax with
    | ⟨0, _⟩ => show a.val = if (16 : Nat) = 1 then 0 else a.val; rw [if_neg (by decide)]
    | ⟨1, _⟩ => show 0 = if (1 : Nat) = 1 then 0 else j.val; rw [if_pos rfl]
    | ⟨2, _⟩ => show k.val = if (384 : Nat) = 1 then 0 else k.val; rw [if_neg (by decide)]
  · rw [Shape.rowMajor_val_two, Shape.rowMajor_val_three]
    show a.val * 384 + k.val = (a.val * 1 + 0) * 384 + k.val
    omega

/-- A chunk of the row viewed `[16, 128, 1]` and repeated along the last axis reads the chunk's entry. -/
theorem col_bc (pc : FVec Ideal S16x128 .f32) (h3 : S16x128.ShapeCasts S16x128x1) (h4 : S16x128x1.Broadcasts S16x128x384)
    (a : Fin 16) (j : Fin 128) (k : Fin 384) :
    broadcastTo S16x128x384 (shapeCast S16x128x1 pc h3) h4 (ix3 a j k) = pc (ix2 a j) := by
  refine (broadcastTo_apply _ h4 (ix3 a j k) (ix3 a j (0 : Fin 1)) fun ax => ?_).trans
    (shapeCast_apply pc h3 (ix3 a j (0 : Fin 1)) (ix2 a j) ?_)
  · match ax with
    | ⟨0, _⟩ => show a.val = if (16 : Nat) = 1 then 0 else a.val; rw [if_neg (by decide)]
    | ⟨1, _⟩ => show j.val = if (128 : Nat) = 1 then 0 else j.val; rw [if_neg (by decide)]
    | ⟨2, _⟩ => show 0 = if (1 : Nat) = 1 then 0 else k.val; rw [if_pos rfl]
  · rw [Shape.rowMajor_val_two, Shape.rowMajor_val_three]
    show a.val * 128 + j.val = (a.val * 128 + j.val) * 1 + 0
    omega

/-- A slab of reciprocals viewed `[1, 128, 384]` and repeated along the first axis reads the slab's entry. -/
theorem slab_bc (d : FVec Ideal S128x384 .f32) (h5 : S128x384.ShapeCasts S1x128x384) (h6 : S1x128x384.Broadcasts S16x128x384)
    (a : Fin 16) (j : Fin 128) (k : Fin 384) :
    broadcastTo S16x128x384 (shapeCast S1x128x384 d h5) h6 (ix3 a j k) = d (ix2 j k) := by
  refine (broadcastTo_apply _ h6 (ix3 a j k) (ix3 (0 : Fin 1) j k) fun ax => ?_).trans
    (shapeCast_apply d h5 (ix3 (0 : Fin 1) j k) (ix2 j k) ?_)
  · match ax with
    | ⟨0, _⟩ => show 0 = if (1 : Nat) = 1 then 0 else a.val; rw [if_pos rfl]
    | ⟨1, _⟩ => show j.val = if (128 : Nat) = 1 then 0 else j.val; rw [if_neg (by decide)]
    | ⟨2, _⟩ => show k.val = if (384 : Nat) = 1 then 0 else k.val; rw [if_neg (by decide)]
  · rw [Shape.rowMajor_val_two, Shape.rowMajor_val_three]
    show j.val * 384 + k.val = (0 * 128 + j.val) * 384 + k.val
    omega

/-- A vector of 16 viewed as a column `[16, 1]` reads its entry. -/
theorem column_cast (v : FVec Ideal S16 .f32) (h : S16.ShapeCasts S16x1) (a : Fin 16) :
    shapeCast S16x1 v h (ix2 a (0 : Fin 1)) = v (ix1 a) := by
  refine shapeCast_apply v h (ix2 a (0 : Fin 1)) (ix1 a) ?_
  rw [Shape.rowMajor_val_one, Shape.rowMajor_val_two]
  show a.val = a.val * 1 + 0
  omega

/-- A slice of 128 columns starting at `o` reads the column shifted by `o`. -/
theorem slice_apply (P : FVec Ideal S16x384 .f32) (o : Nat) (ho : o + 128 ≤ 384) (h : S16x384.Slices ![0, o] S16x128)
    (a : Fin 16) (j : Fin 128) :
    extractStridedSlice S16x128 ![0, o] P h (ix2 a j) = P (ix2 a (Cube.chunkIdx o ho j)) := by
  refine extractStridedSlice_apply _ P h (ix2 a j) (ix2 a (Cube.chunkIdx o ho j)) fun ax => ?_
  match ax with
  | ⟨0, _⟩ => show a.val = 0 + a.val; omega
  | ⟨1, _⟩ => rfl

/-! ## The reductions and the select -/

/-- A select on `x > h` is an if. -/
theorem select_gt (x h a b : EReal) :
    Scalar.select (FloatOps.cmpf (F := Ideal) (φ := .f32) .ogt x h) a b = if h < x then a else b := by
  show (if BitVec.ofBool (decide (h < x)) = 1 then a else b) = _
  by_cases hh : h < x <;> simp [hh]

/-- The maximum over the middle axis of one chunk's cube: a fold over the chunk's 128 values of `j`. -/
theorem chunk_apply (row : FVec Ideal S16x384 .f32) (pc : FVec Ideal S16x128 .f32) (d : FVec Ideal S128x384 .f32)
    (h1 : S16x384.ShapeCasts S16x1x384) (h2 : S16x1x384.Broadcasts S16x128x384)
    (h3 : S16x128.ShapeCasts S16x128x1) (h4 : S16x128x1.Broadcasts S16x128x384)
    (h5 : S128x384.ShapeCasts S1x128x384) (h6 : S1x128x384.Broadcasts S16x128x384)
    (hr : S16x128x384.Reduces [1] S16x384) (hφ : FKind.Formats .f32)
    (hacc : (0xFF800000#32 : BitVec 32) = FKind.maximumf.neutral .f32 hφ) (a : Fin 16) (k : Fin 384) :
    multiReduction (F := Ideal) .maximumf [1] S16x384
        (mulf (maximumf (subf (broadcastTo S16x128x384 (shapeCast S16x1x384 row h1) h2)
                              (broadcastTo S16x128x384 (shapeCast S16x128x1 pc h3) h4))
                        (broadcast S16x128x384 (Scalar.ofBits (F := Ideal) .f32 0x00000000#32)))
              (broadcastTo S16x128x384 (shapeCast S1x128x384 d h5) h6))
        0xFF800000#32 hr hφ hacc (ix2 a k)
      = Cube.maxOver fun j : Fin 128 => max (row (ix2 a k) - pc (ix2 a j)) 0 * d (ix2 j k) := by
  rw [Ideal.multiReduction_maximumf_single _ _ hr hφ hacc (ix2 a k)]
  unfold Cube.maxOver
  show Finset.fold max (Ideal.ofBits .f32 0xFF800000#32)
      (fun j : Fin 128 =>
        max (broadcastTo S16x128x384 (shapeCast S16x1x384 row h1) h2 (hr.lift (ix2 a k) j)
              - broadcastTo S16x128x384 (shapeCast S16x128x1 pc h3) h4 (hr.lift (ix2 a k) j))
            (Ideal.ofBits .f32 0x00000000#32)
          * broadcastTo S16x128x384 (shapeCast S1x128x384 d h5) h6 (hr.lift (ix2 a k) j)) Finset.univ = _
  rw [Cert.CubeConsts.ninf, Cert.CubeConsts.zero]
  refine Finset.fold_congr fun j _ => ?_
  have hl : hr.lift (ix2 a k) j = ix3 a j k :=
    funext fun ax => Fin.ext (match ax with | ⟨0, _⟩ => rfl | ⟨1, _⟩ => rfl | ⟨2, _⟩ => rfl)
  rw [hl, row_bc, col_bc, slab_bc]

/-- The minimum over the columns of a row block: a fold over the 384 columns. -/
theorem min_apply (v : FVec Ideal S16x384 .f32) (h : S16x384.Reduces [1] S16) (hφ : FKind.Formats .f32)
    (hacc : (0x7F800000#32 : BitVec 32) = FKind.minimumf.neutral .f32 hφ) (a : Fin 16) :
    multiReduction (F := Ideal) .minimumf [1] S16 v 0x7F800000#32 h hφ hacc (ix1 a)
      = Cube.minOver fun k : Fin 384 => v (ix2 a k) := by
  rw [multiReduction_minimumf_eq_fold, h.fold_filter_drop_single]
  unfold Cube.minOver
  show Finset.fold min (Ideal.ofBits .f32 0x7F800000#32) (fun k : Fin 384 => v (h.lift (ix1 a) k)) Finset.univ = _
  rw [Cert.CubeConsts.pinf]
  refine Finset.fold_congr fun k _ => ?_
  exact congrArg v (funext fun ax => Fin.ext (match ax with | ⟨0, _⟩ => rfl | ⟨1, _⟩ => rfl))

/-! ## The payloads at an index -/

/-- A select on `mask > 1/2`, the mask loaded and cast to its own shape, is an if on the mask's entry. -/
theorem select_mask {s : Shape} (w : FVec Ideal s .f32) (hs : s.ShapeCasts s) (A B : FVec Ideal s .f32) (i : s.Idx) :
    select (cmpf .ogt (shapeCast s w hs) (broadcast s (Scalar.ofBits (F := Ideal) .f32 0x3F000000#32))) A B i
      = if Cube.halfLit < w i then A i else B i := by
  show Scalar.select (FloatOps.cmpf (F := Ideal) (φ := .f32) .ogt (shapeCast s w hs i) (Ideal.ofBits .f32 0x3F000000#32)) (A i) (B i) = _
  rw [select_gt, shapeCast_self]

variable (x0 x2 x3 : Vec Ideal S16x384 .f32) (s0 s1 s2 : Vec Ideal S128x384 .f32)

/-- The loaded distances, cast to their own shape. -/
theorem pay2_apply (a : Fin 16) (k : Fin 384) : k0_pay2 (F := Ideal) x0 (ix2 a k) = x0 (ix2 a k) := by
  unfold k0_pay2
  exact congrFun (shapeCast_self x0 _) (ix2 a k)

/-- A loaded slab of reciprocals, cast to its own shape. -/
theorem pay6_apply (j : Fin 128) (k : Fin 384) : k0_pay6 (F := Ideal) s2 (ix2 j k) = s2 (ix2 j k) := by
  unfold k0_pay6
  exact congrFun (shapeCast_self s2 _) (ix2 j k)

/-- The row with `+∞` at the `j` that are not admitted. -/
theorem pay3_apply (a : Fin 16) (j : Fin 384) :
    k0_pay3 (F := Ideal) x0 x2 (ix2 a j) = Cube.poisoned (fun j => x0 (ix2 a j)) (fun j => x2 (ix2 a j)) j := by
  unfold k0_pay3 Cube.poisoned
  refine (select_mask x2 _ _ _ (ix2 a j)).trans ?_
  exact congrArg₂ (fun x y => if Cube.halfLit < x2 (ix2 a j) then x else y) (pay2_apply x0 a j) Cert.CubeConsts.pinf

/-- The third chunk of that row. -/
theorem pay5_apply (a : Fin 16) (j : Fin 128) :
    k0_pay5 (F := Ideal) x0 x2 (ix2 a j)
      = Cube.poisoned (fun j => x0 (ix2 a j)) (fun j => x2 (ix2 a j)) (Cube.chunkIdx 256 (by omega) j) := by
  unfold k0_pay5
  exact (slice_apply _ 256 (by omega) _ a j).trans (pay3_apply x0 x2 a _)

/-- One chunk's term, as a function of the chunk's `j`. -/
abbrev chunkTerm (a : Fin 16) (k : Fin 384) (o : Nat) (ho : o + 128 ≤ 384) (d : Vec Ideal S128x384 .f32) : Fin 128 → EReal :=
  fun j => max (x0 (ix2 a k) - Cube.poisoned (fun j => x0 (ix2 a j)) (fun j => x2 (ix2 a j)) (Cube.chunkIdx o ho j)) 0 * d (ix2 j k)

/-- The running maximum after the first two chunks. -/
theorem pay4_apply (a : Fin 16) (k : Fin 384) :
    k0_pay4 (F := Ideal) x0 x2 s0 s1 (ix2 a k)
      = max (max ⊥ (Cube.maxOver (chunkTerm x0 x2 a k 0 (by omega) s0))) (Cube.maxOver (chunkTerm x0 x2 a k 128 (by omega) s1)) := by
  unfold k0_pay4
  refine (maximumf_apply _ _ _).trans (congrArg₂ max ((maximumf_apply _ _ _).trans (congrArg₂ max ?_ ?_)) ?_)
  · exact Cert.CubeConsts.ninf
  · refine (chunk_apply _ _ _ _ _ _ _ _ _ _ _ _ a k).trans (congrArg Cube.maxOver (funext fun j => ?_))
    rw [pay2_apply, slice_apply _ 0 (by omega), pay3_apply, shapeCast_self]
  · refine (chunk_apply _ _ _ _ _ _ _ _ _ _ _ _ a k).trans (congrArg Cube.maxOver (funext fun j => ?_))
    rw [pay2_apply, slice_apply _ 128 (by omega), pay3_apply, shapeCast_self]

/-- The stored number at row `a`, over the values the third chunk is computed from. -/
theorem pay1_apply (v1 v38 : FVec Ideal S16x384 .f32) (v39 : FVec Ideal S16x128 .f32) (v41 : FVec Ideal S128x384 .f32) (a : Fin 16) :
    k0_pay1 (F := Ideal) v1 v38 v39 v41 x3 (ix2 a (0 : Fin 1))
      = Cube.minOver fun k : Fin 384 =>
          if Cube.halfLit < x3 (ix2 a k) then ⊤
          else max (v38 (ix2 a k)) (Cube.maxOver fun j : Fin 128 => max (v1 (ix2 a k) - v39 (ix2 a j)) 0 * v41 (ix2 j k)) := by
  unfold k0_pay1
  refine (column_cast _ _ a).trans ((min_apply _ _ _ _ a).trans (congrArg Cube.minOver (funext fun k => ?_)))
  refine (select_mask x3 _ _ _ (ix2 a k)).trans ?_
  refine congrArg₂ (fun x y => if Cube.halfLit < x3 (ix2 a k) then x else y) Cert.CubeConsts.pinf ?_
  refine (maximumf_apply _ _ _).trans (congrArg (max (v38 (ix2 a k))) ?_)
  exact chunk_apply _ _ _ _ _ _ _ _ _ _ _ _ a k

/-- THE BODY'S VALUE at row `a`, over the loaded row, masks and slabs. -/
theorem body_value (a : Fin 16) :
    k0_pay1 (F := Ideal) (k0_pay2 x0) (k0_pay4 x0 x2 s0 s1) (k0_pay5 x0 x2) (k0_pay6 s2) x3 (ix2 a (0 : Fin 1))
      = Cube.minOver fun k : Fin 384 =>
          if Cube.halfLit < x3 (ix2 a k) then ⊤
          else max (max (max ⊥ (Cube.maxOver (chunkTerm x0 x2 a k 0 (by omega) s0))) (Cube.maxOver (chunkTerm x0 x2 a k 128 (by omega) s1)))
                 (Cube.maxOver (chunkTerm x0 x2 a k 256 (by omega) s2)) := by
  refine (pay1_apply x3 _ _ _ _ a).trans (congrArg Cube.minOver (funext fun k => ?_))
  refine congrArg (fun z => if Cube.halfLit < x3 (ix2 a k) then (⊤ : EReal) else z) ?_
  refine congrArg₂ max (pay4_apply x0 x2 s0 s1 a k) (congrArg Cube.maxOver (funext fun j => ?_))
  rw [pay2_apply, pay5_apply, pay6_apply]

end Cert.KernelIdeal.Payload

end
-- ==== Proof.KernelHost.lean ====
/-
  What the four arrays the kernel's windows stage hold when the region is entered, as functions of the arguments.

  The host lines before the call compute: the squared distances (window 0's array), the reciprocals of the denominators
  (window 1's), the float mask `same · (1 - diagonal)` (window 2's) and the float mask `same` (window 3's). The distances
  and the denominators are computed by the same operations, in the same order, as the reference's stages 15 and 45, so
  they are stated as those stages and never opened; the label broadcasts and the diagonal bit likewise are the
  reference's stages 52, 51 and 59.
-/
import proofs.«133227_j87093346828907_2_alg».proof.Proof.Gen.KernelIdeal.Frame
import proofs.«133227_j87093346828907_2_alg».proof.Proof.RefValue
import Idealize.ShloMosaic.Lib.StableHlo.Run
import Idealize.ShloMosaic.Lib.Pipeline.Value

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx
open Cert.ReferenceIdeal (RefValue.C RefValue.D RefValue.Y)

variable (x0 : (⟨S384x128, .f32⟩ : BufTy).Contents (Elt Ideal)) (x1 : (⟨S128x128, .f32⟩ : BufTy).Contents (Elt Ideal))
  (x2 : (⟨S384, .i32⟩ : BufTy).Contents (Elt Ideal))

/-- The reciprocals of the denominators, as the host lines form them: `1 / denominator`. -/
def recips : S384x384.Idx → EReal :=
  Host.divf (F := Ideal) (broadcastInDim S384x384 ![] bcast_S_S384x384 (constant (F := Ideal) S_ .f32 0x3F800000#32))
    (Cert.ReferenceIdeal.ReadP.val_main_v45 (F := Ideal) x0 x1)

/-- The float mask "same class": the comparison bit of the two label broadcasts, read as a float. -/
def sameF : S384x384.Idx → EReal :=
  uitofp (F := Ideal) .f32 (cmpi .eq (Cert.ReferenceIdeal.ReadP.val_main_v52 (F := Ideal) x2) (Cert.ReferenceIdeal.ReadP.val_main_v51 (F := Ideal) x2))

/-- The float mask "same class and off the diagonal": `same · (1 - diagonal)`. -/
def validF : S384x384.Idx → EReal :=
  mulf (F := Ideal) (sameF x2)
    (subf (F := Ideal) (broadcastInDim S384x384 ![] bcast_S_S384x384 (constant (F := Ideal) S_ .f32 0x3F800000#32))
      (uitofp (F := Ideal) .f32 (Cert.ReferenceIdeal.ReadP.val_main_v59 (F := Ideal))))

/-! ## The arrays at the region's entry -/

variable (m : (ℓ : Loc nD τ sig) → Buf (Elt Ideal) ℓ)

/-- Window 0's array: the squared distances. -/
theorem distances (c : Dev nD) :
    (V m c main_v14 : S384x384.Idx → EReal)
      = Cert.ReferenceIdeal.ReadP.val_main_v15 (F := Ideal) (m ((c : Thread nD τ).loc main_arg0)) (m ((c : Thread nD τ).loc main_arg1)) := by
  show StableHlo.after hostOps0 (fun b => m (c, b)) (Proc.devRef .tc main_v14) = _
  after_results_simp
  rfl

/-- Window 1's array: the reciprocals. -/
theorem reciprocals (c : Dev nD) :
    (V m c main_v38 : S384x384.Idx → EReal)
      = recips (m ((c : Thread nD τ).loc main_arg0)) (m ((c : Thread nD τ).loc main_arg1)) := by
  show StableHlo.after hostOps0 (fun b => m (c, b)) (Proc.devRef .tc main_v38) = _
  after_results_simp
  rfl

/-- Window 2's array: the mask of the admitted `j`. -/
theorem valid_mask (c : Dev nD) :
    (V m c main_v53 : S384x384.Idx → EReal) = validF (m ((c : Thread nD τ).loc main_arg2)) := by
  show StableHlo.after hostOps0 (fun b => m (c, b)) (Proc.devRef .tc main_v53) = _
  after_results_simp
  rfl

/-- Window 3's array: the mask of the excluded columns. -/
theorem same_mask (c : Dev nD) :
    (V m c main_v44 : S384x384.Idx → EReal) = sameF (m ((c : Thread nD τ).loc main_arg2)) := by
  show StableHlo.after hostOps0 (fun b => m (c, b)) (Proc.devRef .tc main_v44) = _
  after_results_simp
  rfl

/-! ## Read at an index -/

theorem one_apply (i : S384x384.Idx) :
    broadcastInDim S384x384 ![] bcast_S_S384x384 (constant (F := Ideal) S_ .f32 0x3F800000#32) i = Ideal.ofBits .f32 0x3F800000#32 :=
  broadcastInDim_apply _ _ _ i ix0 (fun a => a.elim0)

/-- A reciprocal is one over the denominator. -/
theorem recips_apply (j k : Fin 384) :
    recips x0 x1 (ix2 j k) = Ideal.div (Ideal.ofBits .f32 0x3F800000#32) (RefValue.D x0 x1 j k) := by
  unfold recips
  show Ideal.div (broadcastInDim S384x384 ![] bcast_S_S384x384 (constant (F := Ideal) S_ .f32 0x3F800000#32) (ix2 j k)) _ = _
  rw [one_apply]
  rfl

/-- The mask "same" at `(i, k)`: the labels' comparison bit as a float. -/
theorem sameF_apply (i k : Fin 384) :
    sameF x2 (ix2 i k) = FloatOps.uitofp (F := Ideal) .f32 (IntOp.cmpi .eq (RefValue.Y x2 i) (RefValue.Y x2 k)) := by
  unfold sameF
  show FloatOps.uitofp (F := Ideal) .f32 (IntOp.cmpi .eq (Cert.ReferenceIdeal.ReadP.val_main_v52 (F := Ideal) x2 (ix2 i k))
    (Cert.ReferenceIdeal.ReadP.val_main_v51 (F := Ideal) x2 (ix2 i k))) = _
  rw [Cert.ReferenceIdeal.RefValue.row_apply, Cert.ReferenceIdeal.RefValue.col_apply]

/-- The mask of the admitted `j` at `(i, j)`. -/
theorem validF_apply (i j : Fin 384) :
    validF x2 (ix2 i j) = FloatOps.uitofp (F := Ideal) .f32 (IntOp.cmpi .eq (RefValue.Y x2 i) (RefValue.Y x2 j))
      * (Ideal.ofBits .f32 0x3F800000#32
        - FloatOps.uitofp (F := Ideal) .f32 (IntOp.cmpi .eq (IntOp.addi (BitVec.ofNat 32 i.val) 0#32) (BitVec.ofNat 32 j.val))) := by
  unfold validF
  show sameF x2 (ix2 i j) * (broadcastInDim S384x384 ![] bcast_S_S384x384 (constant (F := Ideal) S_ .f32 0x3F800000#32) (ix2 i j)
    - FloatOps.uitofp (F := Ideal) .f32 (Cert.ReferenceIdeal.ReadP.val_main_v59 (F := Ideal) (ix2 i j))) = _
  rw [sameF_apply, one_apply, Cert.ReferenceIdeal.RefValue.eye_apply]

end Cert.KernelIdeal.HostValue

end
-- ==== Proof.KernelValue.lean ====
/-
  The kernel's result array, read off the generated frame run.

  Grid point `t` holds rows `16 t … 16 t + 15`: its blocks of the distances and of the two masks are those rows of the
  arrays the host lines wrote, its block of the reciprocals is the whole array, and what it writes back is, at row `a` of
  the block, the body's number for row `16 t + a` — the specification's `result` there, by the row law. The 24 blocks
  of 16 rows tile the 384 rows, so the output array ends holding `result` at every row; the one host line after the region
  only drops the unit axis.
-/
import proofs.«133227_j87093346828907_2_alg».proof.Proof.Gen.KernelIdeal.Frame
import proofs.«133227_j87093346828907_2_alg».proof.Proof.KernelPayload
import proofs.«133227_j87093346828907_2_alg».proof.Proof.KernelHost
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.ReferenceIdeal (RefValue.C RefValue.D RefValue.Y)

/-! ## What the body leaves, at a row of the block -/

theorem hz : (![0, 0] : Fin 2 → Nat) = fun _ => 0 := funext fun a => by fin_cases a <;> rfl

/-- A slab of 128 rows of the reciprocals loaded from row `o` reads the rows shifted by `o`. -/
theorem slab_apply (x1 : Vec Ideal S384x384 .f32) (o : Nat) (ho : o + 128 ≤ 384)
    (inb : ∀ a, (![o, 0] : Fin 2 → Nat) a + S128x384.size a ≤ S384x384.size a) (j : Fin 128) (k : Fin 384) :
    View.ld x1 (Rect.unit (s := S384x384) ![o, 0] S128x384.size inb) (ix2 j k) = x1 (ix2 (Cube.chunkIdx o ho j) k) := by
  show x1 _ = x1 _
  refine congrArg x1 (funext fun ax => Fin.ext ?_)
  match ax with
  | ⟨0, _⟩ => show o + 1 * j.val = o + j.val; omega
  | ⟨1, _⟩ => show 0 + 1 * k.val = k.val; omega

/-- The body's stored number at row `a` of the block is the row value of the block's data. -/
theorem out_apply (x0 : Vec Ideal S16x384 .f32) (x1 : Vec Ideal S384x384 .f32) (x2 x3 : Vec Ideal S16x384 .f32) (a : Fin 16) :
    out0_4 (F := Ideal) x0 x1 x2 x3 (ix2 a (0 : Fin 1))
      = Cube.rowValue (fun k => x0 (ix2 a k)) (fun j => x2 (ix2 a j)) (fun k => x3 (ix2 a k)) (fun j k => x1 (ix2 j k)) := by
  unfold out0_4
  rw [View.canon_unit_zero hz]
  simp only [View.ld_unit_zero (S := S16x384) hz]
  refine (Payload.body_value x0 x2 x3 _ _ _ a).trans ?_
  unfold Cube.rowValue Cube.chunkMax
  refine congrArg Cube.minOver (funext fun k => ?_)
  refine congrArg (fun z => if Cube.halfLit < x3 (ix2 a k) then (⊤ : EReal) else z) ?_
  refine congrArg₂ max (congrArg₂ max (congrArg (max ⊥) ?_) ?_) ?_
  · refine congrArg Cube.maxOver (funext fun j => ?_)
    show _ * View.ld x1 r0_1 (ix2 j k) = _
    rw [slab_apply x1 0 (by omega)]
  · refine congrArg Cube.maxOver (funext fun j => ?_)
    show _ * View.ld x1 r0_2 (ix2 j k) = _
    rw [slab_apply x1 128 (by omega)]
  · refine congrArg Cube.maxOver (funext fun j => ?_)
    show _ * View.ld x1 r0_3 (ix2 j k) = _
    rw [slab_apply x1 256 (by omega)]

/-! ## The windows' blocks -/

variable (m : (ℓ : Loc nD τ sig) → Buf (Elt Ideal) ℓ) (ρ : Dev nD → PrngReg)

/-- The printed index maps over the grid: the row windows sit at block row `t`, the reciprocals' window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `a` of point `t`'s block of the distances is row `16 t + a` of the array. -/
theorem block0 (c : Dev nD) (t : Fin cfg0.N) (a : Fin 16) (k : Fin 384) (i : Fin 384) (hi : i.val = 16 * t.val + a.val) :
    (iblk m c 0 t : Vec Ideal S16x384 .f32) (ix2 a k) = (V m c main_v14 : S384x384.Idx → EReal) (ix2 i k) := by
  obtain ⟨e0, e1, -⟩ := idx_facts t
  unfold iblk
  rw [View.read_apply]
  show V m c main_v14 _ = V m c main_v14 _
  refine congrArg (V m c main_v14) (funext fun ax => Fin.ext ?_)
  match ax with
  | ⟨0, _⟩ => show win0_0.index t (0 : Fin 2) * 16 + 1 * a.val = i.val; rw [e0, hi]; omega
  | ⟨1, _⟩ => show win0_0.index t (1 : Fin 2) * 384 + 1 * k.val = k.val; rw [e1]; omega

/-- Every point's block of the reciprocals is the whole array. -/
theorem block1 (c : Dev nD) (t : Fin cfg0.N) (j k : Fin 384) :
    (iblk m c 1 t : Vec Ideal S384x384 .f32) (ix2 j k) = (V m c main_v38 : S384x384.Idx → EReal) (ix2 j k) := by
  obtain ⟨-, -, e0, e1, -⟩ := idx_facts t
  unfold iblk
  rw [View.read_apply]
  show V m c main_v38 _ = V m c main_v38 _
  refine congrArg (V m c main_v38) (funext fun ax => Fin.ext ?_)
  match ax with
  | ⟨0, _⟩ => show win0_1.index t (0 : Fin 2) * 384 + 1 * j.val = j.val; rw [e0]; omega
  | ⟨1, _⟩ => show win0_1.index t (1 : Fin 2) * 384 + 1 * k.val = k.val; rw [e1]; omega

/-- Row `a` of point `t`'s block of the mask of the admitted `j`. -/
theorem block2 (c : Dev nD) (t : Fin cfg0.N) (a : Fin 16) (k : Fin 384) (i : Fin 384) (hi : i.val = 16 * t.val + a.val) :
    (iblk m c 2 t : Vec Ideal S16x384 .f32) (ix2 a k) = (V m c main_v53 : S384x384.Idx → EReal) (ix2 i k) := by
  obtain ⟨-, -, -, -, e0, e1, -⟩ := idx_facts t
  unfold iblk
  rw [View.read_apply]
  show V m c main_v53 _ = V m c main_v53 _
  refine congrArg (V m c main_v53) (funext fun ax => Fin.ext ?_)
  match ax with
  | ⟨0, _⟩ => show win0_2.index t (0 : Fin 2) * 16 + 1 * a.val = i.val; rw [e0, hi]; omega
  | ⟨1, _⟩ => show win0_2.index t (1 : Fin 2) * 384 + 1 * k.val = k.val; rw [e1]; omega

/-- Row `a` of point `t`'s block of the mask of the excluded columns. -/
theorem block3 (c : Dev nD) (t : Fin cfg0.N) (a : Fin 16) (k : Fin 384) (i : Fin 384) (hi : i.val = 16 * t.val + a.val) :
    (iblk m c 3 t : Vec Ideal S16x384 .f32) (ix2 a k) = (V m c main_v44 : S384x384.Idx → EReal) (ix2 i k) := by
  obtain ⟨-, -, -, -, -, -, e0, e1, -⟩ := idx_facts t
  unfold iblk
  rw [View.read_apply]
  show V m c main_v44 _ = V m c main_v44 _
  refine congrArg (V m c main_v44) (funext fun ax => Fin.ext ?_)
  match ax with
  | ⟨0, _⟩ => show win0_3.index t (0 : Fin 2) * 16 + 1 * a.val = i.val; rw [e0, hi]; omega
  | ⟨1, _⟩ => show win0_3.index t (1 : Fin 2) * 384 + 1 * k.val = k.val; rw [e1]; omega

/-! ## What a point writes back -/

/-- The specification's result of the arguments, by row. -/
def R (c : Dev nD) (i : Fin 384) : EReal :=
  Cube.result (RefValue.C (m ((c : Thread nD τ).loc main_arg0)) (m ((c : Thread nD τ).loc main_arg1)))
    (RefValue.D (m ((c : Thread nD τ).loc main_arg0)) (m ((c : Thread nD τ).loc main_arg1)))
    (Cube.sameClass (RefValue.Y (m ((c : Thread nD τ).loc main_arg2)))) i

/-- Row `a` of what point `t` leaves in the output's staging buffer is the result at row `16 t + a`. -/
theorem point_value (c : Dev nD) (t : Fin cfg0.N) (a : Fin 16) (i : Fin 384) (hi : i.val = 16 * t.val + a.val) :
    out0_4 (F := Ideal) (iblk m c 0 t) (iblk m c 1 t) (iblk m c 2 t) (iblk m c 3 t) (ix2 a (0 : Fin 1)) = R m c i := by
  refine (out_apply (iblk m c 0 t) (iblk m c 1 t) (iblk m c 2 t) (iblk m c 3 t) a).trans ?_
  unfold R
  refine Cube.rowValue_eq _ _ _ i _ _ _ _ (fun k => ?_) (fun j => ?_) (fun k => ?_) (fun j k => ?_)
    (Cert.ReferenceIdeal.RefValue.D_ne_zero _ _)
  · rw [block0 m c t a k i hi, HostValue.distances]
    rfl
  · rw [block2 m c t a j i hi, HostValue.valid_mask, HostValue.validF_apply]
    exact (Cert.CubeBits.half_lt_mask _ _).trans (and_congr IntOp.cmpi_eq (not_congr (Cert.CubeBits.eye_iff i j)))
  · rw [block3 m c t a k i hi, HostValue.same_mask, HostValue.sameF_apply]
    exact (Cert.CubeBits.half_lt_bit _).trans IntOp.cmpi_eq
  · rw [block1 m c t j k, HostValue.reciprocals, HostValue.recips_apply, Cert.CubeConsts.one]

/-- The output array's final contents: the result by row (its one column). -/
def G (c : Dev nD) : S384x1.Idx → EReal := fun i => R m c ⟨(i 0).val, (i 0).isLt⟩

/-- WHAT POINT `t` WRITES BACK is block `t` of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  obtain ⟨-, -, -, -, -, -, -, -, e0, e1⟩ := idx_facts t
  funext y
  obtain ⟨a, rfl⟩ : ∃ a : Fin 16, y = ix2 a (0 : Fin 1) :=
    ⟨⟨(y 0).val, (y 0).isLt⟩, funext fun ax => Fin.ext (match ax with
      | ⟨0, _⟩ => rfl
      | ⟨1, _⟩ => by
        have h : (y 1).val < 1 := (y 1).isLt
        show (y 1).val = 0
        omega)⟩
  have hN : cfg0.N = 24 := N_0
  have ht : t.val < 24 := hN ▸ t.isLt
  show out0_4 (F := Ideal) (iblk m c 0 t) (iblk m c 1 t) (iblk m c 2 t) (iblk m c 3 t) (ix2 a (0 : Fin 1))
    = G m c (((cfg0.win 4).blk t).view.emb (ix2 a (0 : Fin 1)))
  rw [point_value m c t a ⟨16 * t.val + a.val, by omega⟩ rfl]
  unfold G
  refine congrArg (R m c) (Fin.ext ?_)
  show 16 * t.val + a.val = win0_4.index t (0 : Fin 2) * 16 + 1 * a.val
  rw [e0]; omega

/-- An index of the output array is in point `t`'s block iff each coordinate is in the block's range. -/
theorem mem_blk (t : Fin cfg0.N) (i : S384x1.Idx) :
    i ∈ ((cfg0.win 4).blk t).view.set ↔ ∀ a : Fin 2, win0_4.index t a * S16x1.size a ≤ (i a).val ∧ (i a).val < win0_4.index t a * S16x1.size a + S16x1.size a := by
  show i ∈ ((View.whole main_v54).slice (win0_4.rect t)).set ↔ _
  rw [View.set_slice_whole, Rect.mem_set_unit]
  exact Iff.rfl

/-- Every row is in some point's block: row `r` in block `r / 16`. -/
theorem cover (i : S384x1.Idx) : ∃ t : Fin cfg0.N, (cfg0.win 4).flush t = true ∧ i ∈ ((cfg0.win 4).blk t).view.set := by
  have h0 : (i 0).val < 384 := (i 0).isLt
  have h1 : (i 1).val < 1 := (i 1).isLt
  have hN : cfg0.N = 24 := N_0
  refine ⟨⟨(i 0).val / 16, by rw [hN]; omega⟩, flush0_4 _, ?_⟩
  rw [mem_blk]
  obtain ⟨-, -, -, -, -, -, -, -, e0, e1⟩ := idx_facts ⟨(i 0).val / 16, by rw [hN]; omega⟩
  intro a
  match a with
  | ⟨0, _⟩ =>
    show win0_4.index _ (0 : Fin 2) * 16 ≤ (i 0).val ∧ (i 0).val < win0_4.index _ (0 : Fin 2) * 16 + 16
    rw [e0]
    show (i 0).val / 16 * 16 ≤ (i 0).val ∧ (i 0).val < (i 0).val / 16 * 16 + 16
    omega
  | ⟨1, _⟩ =>
    show win0_4.index _ (1 : Fin 2) * 1 ≤ (i 1).val ∧ (i 1).val < win0_4.index _ (1 : Fin 2) * 1 + 1
    rw [e1]
    omega

/-- THE OUTPUT ARRAY after the region: the result at every row. -/
theorem final (c : Dev nD) : (dats m 0 c).arrAt 4 cfg0.N = G m c :=
  (dats m 0 c).arrAt_eq_of_cover 4 (G m c) (fun t _ => flushed_eq m c t) cover

/-! ## The host line after the region, and the run -/

/-- The result buffer: the result by row. -/
def Rvec (c : Dev nD) : S384.Idx → EReal := fun i => R m c ⟨(i 0).val, (i 0).isLt⟩

/-- The one host line after the region drops the output array's unit axis. -/
theorem tail_eq (c : Dev nD) : Pipeline.afterTail₀ cfgs (dats m) 0 (V0 m) [hostOps1] c main_v55 = Rvec m c := by
  have e : Pipeline.withArrays (cfgs 0).spec c (V0 m c) (fun w => (dats m 0 c).arrAt w (cfgs 0).N) (Proc.devRef .tc main_v54) = G m c :=
    (Pipeline.withArrays_arr spec0 launch0.win.arr_inj c _ _ 4).trans (final m c)
  unfold Pipeline.afterTail₀
  show StableHlo.after hostOps1 _ (Proc.devRef .tc main_v55) = _
  after_results
  refine funext fun (i : S384.Idx) => ?_
  show shapeCast S384 (Pipeline.withArrays (cfgs 0).spec c (V0 m c) (fun w => (dats m 0 c).arrAt w (cfgs 0).N) (Proc.devRef .tc main_v54)) _ i = _
  rw [e]
  refine (shapeCast_apply (s := S384x1) (t := S384) (G m c) _ i (ix2 ⟨(i 0).val, (i 0).isLt⟩ (0 : Fin 1)) ?_).trans rfl
  refine (Shape.rowMajor_val_two (d := ![384, 1]) _).trans (Eq.trans ?_ (Shape.rowMajor_val_one (d := ![384]) i).symm)
  show (i 0).val * 1 + 0 = (i 0).val
  omega

/-- THE KERNEL'S RUN, read: the result buffer ends at the specification's result of the arguments, the arguments
    unchanged. -/
theorem run : θ_run defs (onTc (τ := τ) (main (F := Ideal))) ⟨m, fun _ => 0, ρ⟩ fun r => ∀ c : Dev nD,
      r.2.mem ((c : Thread nD τ).loc main_v55) = Rvec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v55 (Pipeline.mem_restRefs_of main_v55 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KValue

end
-- ==== Proof.lean ====
/-
  The certificate: the kernel — pairwise squared distances, then for each row the minimum, over the columns outside the
  row's class, of the maximum over the admitted `j` of a clamped difference of distances over a denominator — against its
  jnp reference, equal as extended reals.

  Both programs compute the distances `C`, the denominators `D` and the class relation by the same host operations;
  those arrays are never opened. The reference forms the whole cube, masks it, and reduces it (Proof/RefValue.lean: its
  result at row `i` is `Cube.result C D s i`, Proof/Spec.lean). The kernel multiplies by reciprocals computed beforehand,
  masks by replacing distances by `+∞`, and takes the maximum in three chunks, sixteen rows per grid point
  (Proof/KernelPayload.lean, Proof/RowValue.lean, Proof/KernelValue.lean: its result buffer ends at the same
  `Cube.result C D s`). No step uses that the inputs are finite: the laws used — `x * (1 / d) = x / d` for `d ≠ 0`,
  `x - ⊤ = ⊥`, `0 * y = 0`, the associativity and commutativity of `max` — hold on all extended reals, and every
  denominator is at least a positive constant.

  The two programs' frames are the generated ones; the reference's is its run with the result dropped. The ideal pass
  rewrote nothing, so `preserves` asks nothing.
-/
import proofs.«133227_j87093346828907_2_alg».proof.Defs
import proofs.«133227_j87093346828907_2_alg».proof.Proof.Gen.Kernel
import proofs.«133227_j87093346828907_2_alg».proof.Proof.Gen.Kernel.Skeleton
import proofs.«133227_j87093346828907_2_alg».proof.Proof.Gen.Kernel.Launch
import proofs.«133227_j87093346828907_2_alg».proof.Proof.Gen.Kernel.Points
import proofs.«133227_j87093346828907_2_alg».proof.Proof.Gen.Kernel.Frame
import proofs.«133227_j87093346828907_2_alg».proof.Proof.Gen.KernelIdeal
import proofs.«133227_j87093346828907_2_alg».proof.Proof.Gen.KernelIdeal.Skeleton
import proofs.«133227_j87093346828907_2_alg».proof.Proof.Gen.KernelIdeal.Launch
import proofs.«133227_j87093346828907_2_alg».proof.Proof.Gen.KernelIdeal.Points
import proofs.«133227_j87093346828907_2_alg».proof.Proof.Gen.KernelIdeal.Frame
import proofs.«133227_j87093346828907_2_alg».proof.Proof.Gen.ReferenceIdeal
import proofs.«133227_j87093346828907_2_alg».proof.Proof.Gen.Pre_finite_inputs
import proofs.«133227_j87093346828907_2_alg».proof.Proof.RefRunP
import proofs.«133227_j87093346828907_2_alg».proof.Proof.RefReadP
import proofs.«133227_j87093346828907_2_alg».proof.Proof.RefValue
import proofs.«133227_j87093346828907_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the arguments both programs end with the specification's result of those arguments. -/
theorem algebraic : Cert.algebraic_KernelIdeal_ReferenceIdeal := by
  intro m ρ m' ρ' _ hagree
  refine ⟨fun c => Cert.KernelIdeal.KValue.Rvec m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq, (hagree c).1, (hagree c).2.1, (hagree c).2.2]
  funext i
  exact (congrArg _ (eq_ix1 i)).trans (Cert.ReferenceIdeal.RefValue.result_eq _ _ _ ⟨(i 0).val, (i 0).isLt⟩)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
